-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S2048x64 : Shape := ⟨2, ![2048, 64]⟩
abbrev S128x8 : Shape := ⟨2, ![128, 8]⟩
abbrev S8 : Shape := ⟨1, ![8]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S2048x64 : S_.BroadcastsInDim S2048x64 (![] : Fin 0 → Fin S2048x64.rank)
  reducesTo_S2048x64_S_d0_1 : S2048x64.ReducesTo [0, 1] S_
  bcast_S_S128x8 : S_.BroadcastsInDim S128x8 (![] : Fin 0 → Fin S128x8.rank)
  reducesTo_S128x8_S_d0_1 : S128x8.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_v13 : IVec S_ 1) (main_v16 : IVec S8 1) : IVec S_ 1 :=
  let main_c_5 : IVec S_ 1 := constantI S_ 1 1#1
  let main_v17 : IVec S_ 1 := (fun x v => Host.reduce IntOp.andi x v reducesTo_S8_S_d0 h_S_) main_v16 main_c_5
  let main_v18 : IVec S_ 1 := andi main_v13 main_v17
  main_v18

def fn {F : FTy → Type} [FloatOps F] (main_arg0 : FVec F S1024x64 .f32) (main_arg1 : FVec F S2048x64 .f32) (main_arg2 : FVec F S128x8 .f32) (main_arg3 : FVec F S8 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S2048x64 .f32 := Host.absf main_arg1
  let main_cst_0 : FVec F S_ .f32 := constant S_ .f32 0x7F800000#32
  let main_v5 : FVec F S2048x64 .f32 := broadcastInDim S2048x64 ![] bcast_S_S2048x64 main_cst_0
  let main_v6 : IVec S2048x64 1 := cmpf .olt main_v4 main_v5
  let main_c_1 : IVec S_ 1 := constantI S_ 1 1#1
  let main_v7 : IVec S_ 1 := (fun x v => Host.reduce IntOp.andi x v reducesTo_S2048x64_S_d0_1 h_S_) main_v6 main_c_1
  let main_v8 : IVec S_ 1 := andi main_v3 main_v7
  let main_v9 : FVec F S128x8 .f32 := Host.absf main_arg2
  let main_cst_2 : FVec F S_ .f32 := constant S_ .f32 0x7F800000#32
  let main_v10 : FVec F S128x8 .f32 := broadcastInDim S128x8 ![] bcast_S_S128x8 main_cst_2
  let main_v11 : IVec S128x8 1 := cmpf .olt main_v9 main_v10
  let main_c_3 : IVec S_ 1 := constantI S_ 1 1#1
  let main_v12 : IVec S_ 1 := (fun x v => Host.reduce IntOp.andi x v reducesTo_S128x8_S_d0_1 h_S_) main_v11 main_c_3
  let main_v13 : IVec S_ 1 := andi main_v8 main_v12
  let main_v14 : FVec F S8 .f32 := Host.absf main_arg3
  let main_cst_4 : FVec F S_ .f32 := constant S_ .f32 0x7F800000#32
  let main_v15 : FVec F S8 .f32 := broadcastInDim S8 ![] bcast_S_S8 main_cst_4
  let main_v16 : IVec S8 1 := cmpf .olt main_v14 main_v15
  fn_part1 (F := F) main_v13 main_v16
-- ==== Kernel.lean ====
abbrev S1024x64 : Shape := ⟨2, ![1024, 64]⟩
abbrev S2048x64 : Shape := ⟨2, ![2048, 64]⟩
abbrev S128x8 : Shape := ⟨2, ![128, 8]⟩
abbrev S8 : Shape := ⟨1, ![8]⟩
abbrev S64x8 : Shape := ⟨2, ![64, 8]⟩
abbrev S1024x8 : Shape := ⟨2, ![1024, 8]⟩
abbrev S1x8 : Shape := ⟨2, ![1, 8]⟩
abbrev S2048x8 : Shape := ⟨2, ![2048, 8]⟩
abbrev S1x1024x1x8 : Shape := ⟨4, ![1, 1024, 1, 8]⟩
abbrev S1x1024x128x8 : Shape := ⟨4, ![1, 1024, 128, 8]⟩
abbrev S1024x1024 : Shape := ⟨2, ![1024, 1024]⟩
abbrev S1x16384 : Shape := ⟨2, ![1, 16384]⟩
abbrev S1024x16384 : Shape := ⟨2, ![1024, 16384]⟩
abbrev S1x1024 : Shape := ⟨2, ![1, 1024]⟩
abbrev S1024x2048x8 : Shape := ⟨3, ![1024, 2048, 8]⟩

abbrev nBuf : Space → Nat
  | .hbm => 17
  | .vmem => 5
  | .smem => 0
  | _ => 0

abbrev bufTy : (tb : Table) → Fin (tcTables nBuf tb) → BufTy
  | .hbm, ⟨0, _⟩ => ⟨S1024x64, .f32⟩
  | .hbm, ⟨1, _⟩ => ⟨S2048x64, .f32⟩
  | .hbm, ⟨2, _⟩ => ⟨S128x8, .f32⟩
  | .hbm, ⟨3, _⟩ => ⟨S8, .f32⟩
  | .hbm, ⟨4, _⟩ => ⟨S64x8, .f32⟩
  | .hbm, ⟨5, _⟩ => ⟨S64x8, .f32⟩
  | .hbm, ⟨6, _⟩ => ⟨S1024x8, .f32⟩
  | .hbm, ⟨7, _⟩ => ⟨S1x8, .f32⟩
  | .hbm, ⟨8, _⟩ => ⟨S1024x8, .f32⟩
  | .hbm, ⟨9, _⟩ => ⟨S1024x8, .f32⟩
  | .hbm, ⟨10, _⟩ => ⟨S2048x8, .f32⟩
  | .hbm, ⟨11, _⟩ => ⟨S1x1024x1x8, .f32⟩
  | .hbm, ⟨12, _⟩ => ⟨S1x1024x128x8, .f32⟩
  | .hbm, ⟨13, _⟩ => ⟨S1024x1024, .f32⟩
  | .hbm, ⟨14, _⟩ => ⟨S1x16384, .f32⟩
  | .hbm, ⟨15, _⟩ => ⟨S1024x16384, .f32⟩
  | .hbm, ⟨16, _⟩ => ⟨S1024x2048x8, .f32⟩
  | .local _ .vmem, ⟨0, _⟩ => ⟨S1024x1024, .f32⟩
  | .local _ .vmem, ⟨1, _⟩ => ⟨S1x1024, .f32⟩
  | .local _ .vmem, ⟨2, _⟩ => ⟨S1x1024, .f32⟩
  | .local _ .vmem, ⟨3, _⟩ => ⟨S1024x1024, .f32⟩
  | .local _ .vmem, ⟨4, _⟩ => ⟨S1024x1024, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S128x8_S64x8_0_0 : S128x8.Slices ![0, 0] S64x8
  slices_S128x8_S64x8_64_0 : S128x8.Slices ![64, 0] S64x8
  bcast_S8_S1x8_1 : S8.BroadcastsInDim S1x8 (![1] : Fin 1 → Fin S1x8.rank)
  bcast_S1x8_S1024x8_0_1 : S1x8.BroadcastsInDim S1024x8 (![0, 1] : Fin 2 → Fin S1024x8.rank)
  shapeCasts_S1024x8_S1x1024x1x8 : S1024x8.ShapeCasts S1x1024x1x8
  bcast_S1x1024x1x8_S1x1024x128x8_0_1_2_3 : S1x1024x1x8.BroadcastsInDim S1x1024x128x8 (![0, 1, 2, 3] : Fin 4 → Fin S1x1024x128x8.rank)
  shapeCasts_S1x1024x128x8_S1024x1024 : S1x1024x128x8.ShapeCasts S1024x1024
  shapeCasts_S2048x8_S1x16384 : S2048x8.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x16384_S1024x2048x8 : S1024x16384.ShapeCasts S1024x2048x8
  dot_S1024x64_S64x8_S1024x8_1_0_0_1_n_n_wf : DotDims.WF S1024x64 S64x8 S1024x8 [1] [0] [0] [1] [] []
  dot_S2048x64_S64x8_S2048x8_1_0_0_1_n_n_wf : DotDims.WF S2048x64 S64x8 S2048x8 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x1024.size a
  hwx0_0 : ∀ i : grid0.Coords, EltTy.bits .f32 = 32 ∨ (Rect.block (s := S1024x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x16384.size a
  hwx0_1 : ∀ i : grid0.Coords, EltTy.bits .f32 = 32 ∨ (Rect.block (s := S1x16384) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x16384.size a
  hwx0_2 : ∀ i : grid0.Coords, EltTy.bits .f32 = 32 ∨ (Rect.block (s := S1024x16384) S1024x1024.size (cc0_transform_2 i) (hinb0_2 i)).WholeWords (EltTy.packing .f32)

variable [Facts₀]

def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S2048x64_S64x8_S2048x8_1_0_0_1_n_n : DotDims S2048x64 S64x8 S2048x8 where
  lhsContracting := [1]
  rhsContracting := [0]
  lhsNonContracting := [0]
  rhsNonContracting := [1]
  lhsBatch := []
  rhsBatch := []
  wf := dot_S2048x64_S64x8_S2048x8_1_0_0_1_n_n_wf

abbrev win0_0 : Pipeline.Window sig grid0 :=
  Pipeline.Window.ofSpec (Memref.whole main_v9) S1024x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64 : Shape := ⟨2, ![1024, 64]⟩
abbrev S2048x64 : Shape := ⟨2, ![2048, 64]⟩
abbrev S128x8 : Shape := ⟨2, ![128, 8]⟩
abbrev S8 : Shape := ⟨1, ![8]⟩
abbrev S64x8 : Shape := ⟨2, ![64, 8]⟩
abbrev S1024x8 : Shape := ⟨2, ![1024, 8]⟩
abbrev S2048x8 : Shape := ⟨2, ![2048, 8]⟩
abbrev S1024x1x8 : Shape := ⟨3, ![1024, 1, 8]⟩
abbrev S1x2048x8 : Shape := ⟨3, ![1, 2048, 8]⟩
abbrev S1024x2048x8 : Shape := ⟨3, ![1024, 2048, 8]⟩
abbrev S1x1x8 : Shape := ⟨3, ![1, 1, 8]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S2048x64, .f32⟩
  | .hbm, ⟨2, _⟩ => ⟨S128x8, .f32⟩
  | .hbm, ⟨3, _⟩ => ⟨S8, .f32⟩
  | .hbm, ⟨4, _⟩ => ⟨S64x8, .f32⟩
  | .hbm, ⟨5, _⟩ => ⟨S64x8, .f32⟩
  | .hbm, ⟨6, _⟩ => ⟨S1024x8, .f32⟩
  | .hbm, ⟨7, _⟩ => ⟨S2048x8, .f32⟩
  | .hbm, ⟨8, _⟩ => ⟨S1024x1x8, .f32⟩
  | .hbm, ⟨9, _⟩ => ⟨S1x2048x8, .f32⟩
  | .hbm, ⟨10, _⟩ => ⟨S1024x2048x8, .f32⟩
  | .hbm, ⟨11, _⟩ => ⟨S1024x2048x8, .f32⟩
  | .hbm, ⟨12, _⟩ => ⟨S1024x2048x8, .f32⟩
  | .hbm, ⟨13, _⟩ => ⟨S1x1x8, .f32⟩
  | .hbm, ⟨14, _⟩ => ⟨S1024x2048x8, .f32⟩
  | .hbm, ⟨15, _⟩ => ⟨S1024x2048x8, .f32⟩
  | .hbm, ⟨16, _⟩ => ⟨S_, .f32⟩
  | .hbm, ⟨17, _⟩ => ⟨S1024x2048x8, .f32⟩
  | .hbm, ⟨18, _⟩ => ⟨S1024x2048x8, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_call0_cst : Ref sig .tc := ⟨.hbm, 16, rfl⟩
abbrev main_call0_v0 : Ref sig .tc := ⟨.hbm, 17, rfl⟩
abbrev main_v12 : Ref sig .tc := ⟨.hbm, 18, rfl⟩

abbrev nD : Nat := 1
abbrev τ : Topo := Topo.v7x

variable {F : FTy → Type} [FloatOps F]

class Facts₀ : Prop where
  slices_S128x8_S64x8_0_0 : S128x8.Slices ![0, 0] S64x8
  slices_S128x8_S64x8_64_0 : S128x8.Slices ![64, 0] S64x8
  bcast_S1024x8_S1024x1x8_0_2 : S1024x8.BroadcastsInDim S1024x1x8 (![0, 2] : Fin 2 → Fin S1024x1x8.rank)
  bcast_S2048x8_S1x2048x8_1_2 : S2048x8.BroadcastsInDim S1x2048x8 (![1, 2] : Fin 2 → Fin S1x2048x8.rank)
  bcast_S1024x1x8_S1024x2048x8_0_1_2 : S1024x1x8.BroadcastsInDim S1024x2048x8 (![0, 1, 2] : Fin 3 → Fin S1024x2048x8.rank)
  bcast_S1x2048x8_S1024x2048x8_0_1_2 : S1x2048x8.BroadcastsInDim S1024x2048x8 (![0, 1, 2] : Fin 3 → Fin S1024x2048x8.rank)
  bcast_S8_S1x1x8_2 : S8.BroadcastsInDim S1x1x8 (![2] : Fin 1 → Fin S1x1x8.rank)
  bcast_S1x1x8_S1024x2048x8_0_1_2 : S1x1x8.BroadcastsInDim S1024x2048x8 (![0, 1, 2] : Fin 3 → Fin S1024x2048x8.rank)
  bcast_S_S1024x2048x8 : S_.BroadcastsInDim S1024x2048x8 (![] : Fin 0 → Fin S1024x2048x8.rank)
  dot_S1024x64_S64x8_S1024x8_1_0_0_1_n_n_wf : DotDims.WF S1024x64 S64x8 S1024x8 [1] [0] [0] [1] [] []
  dot_S2048x64_S64x8_S2048x8_1_0_0_1_n_n_wf : DotDims.WF S2048x64 S64x8 S2048x8 [1] [0] [0] [1] [] []

variable [Facts₀]

def dot_S1024x64_S64x8_S1024x8_1_0_0_1_n_n : DotDims S1024x64 S64x8 S1024x8 where
  lhsContracting := [1]
  rhsContracting := [0]
  lhsNonContracting := [0]
  rhsNonContracting := [1]
  lhsBatch := []
  rhsBatch := []
  wf := dot_S1024x64_S64x8_S1024x8_1_0_0_1_n_n_wf
def dot_S2048x64_S64x8_S2048x8_1_0_0_1_n_n : DotDims S2048x64 S64x8 S2048x8 where
  lhsContracting := [1]
  rhsContracting := [0]
  lhsNonContracting := [0]
  rhsNonContracting := [1]
  lhsBatch := []
  rhsBatch := []
  wf := dot_S2048x64_S64x8_S2048x8_1_0_0_1_n_n_wf

class Facts : Prop extends Facts₀ where

variable [Facts]
-- ==== Proof.ReluSum.lean ====
/-
  The function both programs compute, as one function of three small arrays, index by index.

  Write `zh` for the row term (the rows of `z` against the upper half of `W`, a 1024 × 8 array), `xh` for the
  column term (the rows of `x` against the lower half of `W`, a 2048 × 8 array) and `bias` for the vector of 8
  biases. The result at `(b, n, h)` is the larger of `0` and `zh (b, h) + xh (n, h) + bias h`.

  The two programs differ in how they group that sum of three terms: one adds the bias to the row term first,
  the other adds it last. On the extended reals addition is commutative and associative at every value,
  infinities included, so the two groupings agree without any hypothesis on the entries (`add_right_comm`).
-/
import Idealize.ShloMosaic.PureOps.Ideal
import Idealize.ShloMosaic.Lib.ValueIdx

noncomputable section

namespace Cert.ReluSum

open Idealize.ShloMosaic Idealize.ShloMosaic.ValueIdx

/-- The larger of zero and the sum of the row term, the column term and the bias, grouped
    `(zh + xh) + bias`; zero is the value of the all-zero word. -/
def reluSum (zh : FVec Ideal ⟨2, ![1024, 8]⟩ .f32) (xh : FVec Ideal ⟨2, ![2048, 8]⟩ .f32)
    (bias : FVec Ideal ⟨1, ![8]⟩ .f32) : FVec Ideal ⟨3, ![1024, 2048, 8]⟩ .f32 :=
  fun i => max ((zh (ix2 (i 0) (i 2)) + xh (ix2 (i 1) (i 2))) + bias (ix1 (i 2))) (Ideal.ofBits .f32 0x00000000#32)

theorem reluSum_apply (zh : FVec Ideal ⟨2, ![1024, 8]⟩ .f32) (xh : FVec Ideal ⟨2, ![2048, 8]⟩ .f32)
    (bias : FVec Ideal ⟨1, ![8]⟩ .f32) (b : Fin 1024) (n : Fin 2048) (h : Fin 8) :
    reluSum zh xh bias (ix3 b n h)
      = max ((zh (ix2 b h) + xh (ix2 n h)) + bias (ix1 h)) (Ideal.ofBits .f32 0x00000000#32) := rfl

/-- Adding the bias to the row term before the column term, or after it, is the same extended real. -/
theorem regroup (a x β z : EReal) : max ((a + β) + x) z = max ((a + x) + β) z := by
  rw [add_right_comm]

end Cert.ReluSum

end
-- ==== Proof.RefReluSum.lean ====
/-
  The reference computes `reluSum`.

  Its last stage is a maximum with a broadcast zero of `(row term + column term) + bias`, each of the three
  summands a broadcast: the row term along the middle axis, the column term along the leading axis, the bias
  along both. Read at `(b, n, h)` the broadcasts pick `(b, h)`, `(n, h)` and `h`, which is `reluSum` with the
  reference's own two matrix products as the row and column terms. The products are never opened.
-/
import proofs.«142133_j12541304504451_2_alg».proof.Proof.Gen.ReferenceIdeal.Read
import proofs.«142133_j12541304504451_2_alg».proof.Proof.ReluSum

noncomputable section

namespace Cert.ReferenceIdeal.RefValue

open Cert.ReferenceIdeal Cert.ReferenceIdeal.Read Cert.ReluSum
open Idealize.ShloMosaic Idealize.ShloMosaic.ValueIdx

/-- The reference's result stage is `reluSum` of its row product, its column product and the bias. -/
theorem stage_eq (x0 : (⟨S1024x64, .f32⟩ : BufTy).Contents (Elt Ideal)) (x1 : (⟨S2048x64, .f32⟩ : BufTy).Contents (Elt Ideal))
    (x2 : (⟨S128x8, .f32⟩ : BufTy).Contents (Elt Ideal)) (x3 : (⟨S8, .f32⟩ : BufTy).Contents (Elt Ideal)) :
    val_main_v12 (F := Ideal) x0 x1 x2 x3
      = reluSum (val_main_v2 (F := Ideal) x0 x2) (val_main_v3 (F := Ideal) x1 x2) x3 := by
  funext i
  obtain ⟨b, n, h, rfl⟩ : ∃ (b : Fin 1024) (n : Fin 2048) (h : Fin 8), i = ix3 b n h := ⟨i 0, i 1, i 2, eq_ix3 i⟩
  have eRow : idx_main_v4 (idx_main_v6 (ix3 b n h)) = ix2 b h :=
    funext fun a => Fin.ext (by match a with | ⟨0, _⟩ => rfl | ⟨1, _⟩ => rfl)
  have eCol : idx_main_v5 (idx_main_v7 (ix3 b n h)) = ix2 n h :=
    funext fun a => Fin.ext (by match a with | ⟨0, _⟩ => rfl | ⟨1, _⟩ => rfl)
  have eBias : idx_main_v9 (idx_main_v10 (ix3 b n h)) = ix1 h :=
    funext fun a => Fin.ext (by match a with | ⟨0, _⟩ => rfl)
  rw [reluSum_apply, val_main_v12_apply, val_main_v11_apply, val_main_v8_apply, val_main_v6_apply, val_main_v4_apply,
    val_main_v7_apply, val_main_v5_apply, val_main_v10_apply, val_main_v9_apply, val_main_call0_v0_apply,
    val_main_call0_cst_apply, eRow, eCol, eBias]
  rfl

end Cert.ReferenceIdeal.RefValue

end
-- ==== Proof.KernelOperands.lean ====
/-
  The two arrays the kernel's region reads, as the host lines before it leave them.

  The host computes the row term `z · W[0:64]` (1024 × 8), adds the bias to every row, and lays the result out
  128 times side by side: the first operand is the 1024 × 1024 array whose entry `(b, y)` is
  `(row term + bias) (b, y mod 8)` (a cast to 1 × 1024 × 1 × 8, a broadcast of the unit axis to 128, a cast to
  1024 × 1024: position `y` of a row is `(y / 8, y mod 8)` of the 128 × 8 grid of copies). The second operand is the
  column term `x · W[64:128]` (2048 × 8) flattened to one row of 16384: entry `q` is `(column term) (q / 8, q mod 8)`.
  Neither matrix product is opened: they are carried as the arrays `rowTerm` and `colTerm`.
-/
import proofs.«142133_j12541304504451_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.Operands

open Cert.KernelIdeal Cert.KernelIdeal.Gen
open Idealize.ShloMosaic Idealize.ShloMosaic.TcCoe Idealize.ShloMosaic.ValueIdx Idealize.SL.Sem Idealize.ShloMosaic.StableHlo

/-- The rows of `z` against the upper half of `W`. -/
def rowTerm (z : FVec Ideal S1024x64 .f32) (W : FVec Ideal S128x8 .f32) : FVec Ideal S1024x8 .f32 :=
  Host.dotGeneral dot_S1024x64_S64x8_S1024x8_1_0_0_1_n_n none z (extractStridedSlice S64x8 ![0, 0] W slices_S128x8_S64x8_0_0)

/-- The rows of `x` against the lower half of `W`. -/
def colTerm (x : FVec Ideal S2048x64 .f32) (W : FVec Ideal S128x8 .f32) : FVec Ideal S2048x8 .f32 :=
  Host.dotGeneral dot_S2048x64_S64x8_S2048x8_1_0_0_1_n_n none x (extractStridedSlice S64x8 ![64, 0] W slices_S128x8_S64x8_64_0)

/-- An 8-vector added to every row of a 1024 × 8 array. -/
def addBias (u : FVec Ideal S1024x8 .f32) (bias : FVec Ideal S8 .f32) : FVec Ideal S1024x8 .f32 :=
  addf u (broadcastInDim S1024x8 ![0, 1] bcast_S1x8_S1024x8_0_1 (broadcastInDim S1x8 ![1] bcast_S8_S1x8_1 bias))

/-- A 1024 × 8 array repeated 128 times along its rows, as a 1024 × 1024 array. -/
def tiled (u : FVec Ideal S1024x8 .f32) : FVec Ideal S1024x1024 .f32 :=
  shapeCast S1024x1024
    (broadcastInDim S1x1024x128x8 ![0, 1, 2, 3] bcast_S1x1024x1x8_S1x1024x128x8_0_1_2_3
      (shapeCast S1x1024x1x8 u shapeCasts_S1024x8_S1x1024x1x8))
    shapeCasts_S1x1024x128x8_S1024x1024

/-- A 2048 × 8 array flattened to one row of 16384. -/
def flat (u : FVec Ideal S2048x8 .f32) : FVec Ideal S1x16384 .f32 :=
  shapeCast S1x16384 u shapeCasts_S2048x8_S1x16384

variable (m : (ℓ : Loc nD τ sig) → Buf (Elt Ideal) ℓ)

/-- The first operand as the region finds it: row term plus bias, tiled. -/
theorem first_eq (c : Dev nD) :
    (V m c main_v9 : S1024x1024.Idx → EReal)
      = tiled (addBias (rowTerm (m ((c : Thread nD τ).loc main_arg0)) (m ((c : Thread nD τ).loc main_arg2)))
          (m ((c : Thread nD τ).loc main_arg3))) := by
  show StableHlo.after hostOps0 (fun b => m (c, b)) (Proc.devRef .tc main_v9) = _
  after_results
  rfl

/-- The second operand as the region finds it: the column term, flattened. -/
theorem second_eq (c : Dev nD) :
    (V m c main_v10 : S1x16384.Idx → EReal)
      = flat (colTerm (m ((c : Thread nD τ).loc main_arg1)) (m ((c : Thread nD τ).loc main_arg2))) := by
  show StableHlo.after hostOps0 (fun b => m (c, b)) (Proc.devRef .tc main_v10) = _
  after_results
  rfl

/-- The bias lands on column `h` of every row. -/
theorem addBias_apply (u : FVec Ideal S1024x8 .f32) (bias : FVec Ideal S8 .f32) (b : Fin 1024) (h : Fin 8) :
    addBias u bias (ix2 b h) = u (ix2 b h) + bias (ix1 h) := by
  unfold addBias
  rw [addf_apply]
  rw [broadcastInDim_apply _ bcast_S1x8_S1024x8_0_1 _ (ix2 b h) (ix2 (0 : Fin 1) h) (fun a => match a with
      | ⟨0, _⟩ => by show 0 = if (1 : Nat) = 1 then 0 else b.val; rw [if_pos rfl]
      | ⟨1, _⟩ => by show h.val = if (8 : Nat) = 1 then 0 else h.val; rw [if_neg (by decide)]),
    broadcastInDim_apply _ bcast_S8_S1x8_1 bias (ix2 (0 : Fin 1) h) (ix1 h) (fun a => match a with
      | ⟨0, _⟩ => by show h.val = if (8 : Nat) = 1 then 0 else h.val; rw [if_neg (by decide)])]

/-- Entry `(b, y)` of the tiled array is entry `(b, y mod 8)` of the array tiled. -/
theorem tiled_apply (u : FVec Ideal S1024x8 .f32) (b : Fin 1024) (y : Fin 1024) :
    tiled u (ix2 b y) = u (ix2 b (⟨y.val % 8, Nat.mod_lt _ (by decide)⟩ : Fin 8)) := by
  have hy : y.val < 1024 := y.isLt
  have hb : b.val < 1024 := b.isLt
  unfold tiled
  rw [shapeCast_apply _ shapeCasts_S1x1024x128x8_S1024x1024 (ix2 b y)
      (ix4 (0 : Fin 1) b (⟨y.val / 8, by omega⟩ : Fin 128) (⟨y.val % 8, Nat.mod_lt _ (by decide)⟩ : Fin 8)) (by
        rw [Shape.rowMajor_val_four, Shape.rowMajor_val_two]
        show ((0 * 1024 + b.val) * 128 + y.val / 8) * 8 + y.val % 8 = b.val * 1024 + y.val
        omega),
    broadcastInDim_apply _ bcast_S1x1024x1x8_S1x1024x128x8_0_1_2_3 _ _
      (ix4 (0 : Fin 1) b (0 : Fin 1) (⟨y.val % 8, Nat.mod_lt _ (by decide)⟩ : Fin 8)) (fun a => match a with
      | ⟨0, _⟩ => by show 0 = if (1 : Nat) = 1 then 0 else 0; rw [if_pos rfl]
      | ⟨1, _⟩ => by show b.val = if (1024 : Nat) = 1 then 0 else b.val; rw [if_neg (by decide)]
      | ⟨2, _⟩ => by show 0 = if (1 : Nat) = 1 then 0 else y.val / 8; rw [if_pos rfl]
      | ⟨3, _⟩ => by show y.val % 8 = if (8 : Nat) = 1 then 0 else y.val % 8; rw [if_neg (by decide)]),
    shapeCast_apply _ shapeCasts_S1024x8_S1x1024x1x8 _ (ix2 b (⟨y.val % 8, Nat.mod_lt _ (by decide)⟩ : Fin 8)) (by
        rw [Shape.rowMajor_val_four, Shape.rowMajor_val_two]
        show b.val * 8 + y.val % 8 = ((0 * 1024 + b.val) * 1 + 0) * 8 + y.val % 8
        omega)]

/-- Entry `q` of the flattened row is entry `(q / 8, q mod 8)` of the array flattened. -/
theorem flat_apply (u : FVec Ideal S2048x8 .f32) (q : Fin 16384) :
    flat u (ix2 (0 : Fin 1) q)
      = u (ix2 (⟨q.val / 8, by have := q.isLt; omega⟩ : Fin 2048) (⟨q.val % 8, Nat.mod_lt _ (by decide)⟩ : Fin 8)) := by
  have hq : q.val < 16384 := q.isLt
  unfold flat
  rw [shapeCast_apply _ shapeCasts_S2048x8_S1x16384 (ix2 (0 : Fin 1) q)
      (ix2 (⟨q.val / 8, by omega⟩ : Fin 2048) (⟨q.val % 8, Nat.mod_lt _ (by decide)⟩ : Fin 8)) (by
        rw [Shape.rowMajor_val_two, Shape.rowMajor_val_two]
        show q.val / 8 * 8 + q.val % 8 = 0 * 16384 + q.val
        omega)]

end Cert.KernelIdeal.Operands

end
-- ==== Proof.KernelBlocks.lean ====
/-
  The 1024 × 16384 array the region leaves, as one function of its two operand arrays.

  The grid has 16 points. At point `t` the body loads the whole first operand `A` (1024 × 1024, the same block at
  every point) and columns `1024 t … 1024 t + 1023` of the one-row second operand `R`, adds the row of `R` to every
  row of `A`, takes the maximum with zero, and writes the 1024 × 1024 result to columns `1024 t … 1024 t + 1023` of
  the output. So entry `(b, q)` of the output, which lies in the block of point `q / 1024` at column `q mod 1024`,
  is `max (A (b, q mod 1024) + R (0, q)) 0`. The 16 blocks tile the output's columns, so every entry is written.
-/
import proofs.«142133_j12541304504451_2_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen
open Idealize.ShloMosaic Idealize.ShloMosaic.TcCoe Idealize.ShloMosaic.ValueIdx Idealize.SL.Sem
open Idealize.ShloMosaic.Pipeline (Dat)

/-- Entry `(b, q)` of the output from the operand arrays: the first operand at `(b, q mod 1024)` plus the second
    operand's one row at `q`, or zero if that is larger. -/
def added (A : FVec Ideal S1024x1024 .f32) (R : FVec Ideal S1x16384 .f32) : FVec Ideal S1024x16384 .f32 := fun i =>
  max (A (ix2 (⟨(i 0).val, (i 0).isLt⟩ : Fin 1024) (⟨(i 1).val % 1024, Nat.mod_lt _ (by decide)⟩ : Fin 1024))
        + R (ix2 (0 : Fin 1) (⟨(i 1).val, (i 1).isLt⟩ : Fin 16384)))
    (Ideal.ofBits .f32 0x00000000#32)

theorem added_apply (A : FVec Ideal S1024x1024 .f32) (R : FVec Ideal S1x16384 .f32) (b : Fin 1024) (q : Fin 16384) :
    added A R (ix2 b q)
      = max (A (ix2 b (⟨q.val % 1024, Nat.mod_lt _ (by decide)⟩ : Fin 1024)) + R (ix2 (0 : Fin 1) q))
          (Ideal.ofBits .f32 0x00000000#32) := rfl

theorem hz : (![0, 0] : Fin 2 → Nat) = fun _ => 0 := funext fun a => by fin_cases a <;> rfl

/-- The body's stored value at `(p, q)` of its block: the first block at `(p, q)` plus the second block's one row at
    `q`, or zero if that is larger (the two casts to the same shape are the identity, the broadcast repeats the row). -/
theorem stored_apply (x0 : Vec Ideal S1024x1024 .f32) (x1 : Vec Ideal S1x1024 .f32) (p q : Fin 1024) :
    k0_pay1 (F := Ideal) x0 x1 (ix2 p q)
      = max (x0 (ix2 p q) + x1 (ix2 (0 : Fin 1) q)) (Ideal.ofBits .f32 0x00000000#32) := by
  unfold k0_pay1
  show max (shapeCast S1024x1024 x0 shapeCasts_S1024x1024_S1024x1024 (ix2 p q)
      + broadcastTo S1024x1024 (shapeCast S1x1024 x1 shapeCasts_S1x1024_S1x1024) broadcasts_S1x1024_S1024x1024 (ix2 p q)) _ = _
  rw [shapeCast_self, shapeCast_self, broadcastTo_1b_ab_apply]
  rfl

/-- The same as an equation of functions of the block index. -/
theorem stored_eq (x0 : Vec Ideal S1024x1024 .f32) (x1 : Vec Ideal S1x1024 .f32) :
    k0_pay1 (F := Ideal) x0 x1
      = fun j : S1024x1024.Idx => max (x0 j + x1 (ix2 (0 : Fin 1) (⟨(j 1).val, (j 1).isLt⟩ : Fin 1024))) (Ideal.ofBits .f32 0x00000000#32) := by
  funext j
  obtain ⟨p, q, rfl⟩ : ∃ (p q : Fin 1024), j = ix2 p q := ⟨j 0, j 1, eq_ix2 j⟩
  exact stored_apply x0 x1 p q

variable (m : (ℓ : Loc nD τ sig) → Buf (Elt Ideal) ℓ)

/-- The printed index maps, decided over the 16 points: the first operand's block never moves, the second
    operand's and the output's blocks are at column block `t`. -/
theorem index_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- What point `t` writes back is block `t` of `added` of the operand arrays as the region finds them. -/
theorem flushed_eq (c : Dev nD) (t : Fin cfg0.N) :
    (dats m 0 c).flushed 2 t
      = ((cfg0.win 2).blk t).view.read (Elt Ideal) (added (V m c main_v9) (V m c main_v10)) := by
  show (cfg0.win 2).cut (grid0.coords t) ((dats m 0 c).after 2 t) = _
  rw [after0_2]
  unfold out0_2
  rw [View.canon_unit_zero hz]
  simp only [View.ld_unit_zero (S := S1024x1024) hz, View.ld_unit_zero (S := S1x1024) hz]
  rw [stored_eq]
  obtain ⟨e00, e01, e10, e11, e20, e21⟩ := index_facts t
  have hN : cfg0.N = 16 := N_0
  have ht : t.val < 16 := by have := t.isLt; omega
  funext j
  have hj0 : (j 0).val < 1024 := (j 0).isLt
  have hj1 : (j 1).val < 1024 := (j 1).isLt
  show @max EReal _ (@HAdd.hAdd EReal EReal EReal _ (V m c main_v9 (((cfg0.win 0).blk t).view.emb j))
        (V m c main_v10 (((cfg0.win 1).blk t).view.emb (ix2 (0 : Fin 1) (⟨(j 1).val, (j 1).isLt⟩ : Fin 1024)))))
        (Ideal.ofBits .f32 0x00000000#32)
      = added (V m c main_v9) (V m c main_v10) (((cfg0.win 2).blk t).view.emb j)
  have h0 : ((cfg0.win 0).blk t).view.emb j
      = ix2 (⟨((((cfg0.win 2).blk t).view.emb j) 0).val, ((((cfg0.win 2).blk t).view.emb j) 0).isLt⟩ : Fin 1024)
          (⟨((((cfg0.win 2).blk t).view.emb j) 1).val % 1024, Nat.mod_lt _ (by decide)⟩ : Fin 1024) := by
    funext a; apply Fin.ext
    match a with
    | ⟨0, _⟩ =>
      show win0_0.index t (0 : Fin 2) * 1024 + 1 * (j 0).val = win0_2.index t (0 : Fin 2) * 1024 + 1 * (j 0).val
      omega
    | ⟨1, _⟩ =>
      show win0_0.index t (1 : Fin 2) * 1024 + 1 * (j 1).val = (win0_2.index t (1 : Fin 2) * 1024 + 1 * (j 1).val) % 1024
      omega
  have h1 : ((cfg0.win 1).blk t).view.emb (ix2 (0 : Fin 1) (⟨(j 1).val, (j 1).isLt⟩ : Fin 1024))
      = ix2 (0 : Fin 1) (⟨((((cfg0.win 2).blk t).view.emb j) 1).val, ((((cfg0.win 2).blk t).view.emb j) 1).isLt⟩ : Fin 16384) := by
    funext a; apply Fin.ext
    match a with
    | ⟨0, _⟩ =>
      show win0_1.index t (0 : Fin 2) * 1 + 1 * 0 = 0
      omega
    | ⟨1, _⟩ =>
      show win0_1.index t (1 : Fin 2) * 1024 + 1 * (j 1).val = win0_2.index t (1 : Fin 2) * 1024 + 1 * (j 1).val
      omega
  rw [h0, h1]
  rfl

/-- An index of the output is in point `t`'s block iff each coordinate is in the block's range on its axis. -/
theorem mem_block (t : Fin cfg0.N) (i : S1024x16384.Idx) :
    i ∈ ((cfg0.win 2).blk t).view.set ↔ ∀ a : Fin 2, win0_2.index t a * S1024x1024.size a ≤ (i a).val
      ∧ (i a).val < win0_2.index t a * S1024x1024.size a + S1024x1024.size a := by
  show i ∈ ((View.whole main_v11).slice (win0_2.rect t)).set ↔ _
  rw [View.set_slice_whole, Rect.mem_set_unit]
  exact Iff.rfl

/-- Column `q` of the output lies in the block of point `q / 1024`: the 16 blocks tile the columns. -/
theorem covered (i : S1024x16384.Idx) :
    ∃ t : Fin cfg0.N, (cfg0.win 2).flush t = true ∧ i ∈ ((cfg0.win 2).blk t).view.set := by
  have hN : cfg0.N = 16 := N_0
  have hi0 : (i 0).val < 1024 := (i 0).isLt
  have hi1 : (i 1).val < 16384 := (i 1).isLt
  refine ⟨⟨(i 1).val / 1024, by omega⟩, flush0_2 _, ?_⟩
  obtain ⟨e00, e01, e10, e11, e20, e21⟩ := index_facts ⟨(i 1).val / 1024, by omega⟩
  rw [mem_block]
  intro a
  match a with
  | ⟨0, _⟩ =>
    show win0_2.index ⟨(i 1).val / 1024, _⟩ (0 : Fin 2) * 1024 ≤ (i 0).val
      ∧ (i 0).val < win0_2.index ⟨(i 1).val / 1024, _⟩ (0 : Fin 2) * 1024 + 1024
    rw [e20]; omega
  | ⟨1, _⟩ =>
    show win0_2.index ⟨(i 1).val / 1024, _⟩ (1 : Fin 2) * 1024 ≤ (i 1).val
      ∧ (i 1).val < win0_2.index ⟨(i 1).val / 1024, _⟩ (1 : Fin 2) * 1024 + 1024
    rw [e21]; show (i 1).val / 1024 * 1024 ≤ (i 1).val ∧ (i 1).val < (i 1).val / 1024 * 1024 + 1024; omega

/-- The output array after the region is `added` of the two operand arrays. -/
theorem final (c : Dev nD) :
    (dats m 0 c).arrAt 2 cfg0.N = added (V m c main_v9) (V m c main_v10) :=
  (dats m 0 c).arrAt_eq_of_cover 2 (added (V m c main_v9) (V m c main_v10)) (fun t _ => flushed_eq m c t) covered

end Cert.KernelIdeal.Blocks

end
-- ==== Proof.KernelResult.lean ====
/-
  The kernel's result is `reluSum`.

  After the region the host re-reads the 1024 × 16384 output as 1024 × 2048 × 8: entry `(b, n, h)` is entry
  `(b, 8 n + h)` of the output. That entry is `max (A (b, (8 n + h) mod 1024) + R (0, 8 n + h)) 0` for the two operand
  arrays `A` (row term plus bias, tiled) and `R` (column term, flattened). Since 1024 is a multiple of 8,
  `((8 n + h) mod 1024) mod 8 = h`, so `A` there is `rowTerm (b, h) + bias h`; and `(8 n + h) / 8 = n`,
  `(8 n + h) mod 8 = h`, so `R` there is `colTerm (n, h)`. The result is therefore
  `max ((rowTerm (b, h) + bias h) + colTerm (n, h)) 0`, which is `reluSum` after regrouping the sum.
-/
import proofs.«142133_j12541304504451_2_alg».proof.Proof.KernelOperands
import proofs.«142133_j12541304504451_2_alg».proof.Proof.KernelBlocks
import proofs.«142133_j12541304504451_2_alg».proof.Proof.ReluSum

noncomputable section

namespace Cert.KernelIdeal.Result

open Cert.KernelIdeal Cert.KernelIdeal.Gen Cert.KernelIdeal.Operands Cert.KernelIdeal.Blocks Cert.ReluSum
open Idealize.ShloMosaic Idealize.ShloMosaic.TcCoe Idealize.ShloMosaic.ValueIdx Idealize.SL.Sem Idealize.ShloMosaic.StableHlo

/-- The 1024 × 16384 array re-read as 1024 × 2048 × 8: `(b, n, h)` is column `8 n + h` of row `b`. -/
theorem unflat_apply (Y : FVec Ideal S1024x16384 .f32) (b : Fin 1024) (n : Fin 2048) (h : Fin 8) (q : Fin 16384)
    (hq : q.val = n.val * 8 + h.val) :
    shapeCast S1024x2048x8 Y shapeCasts_S1024x16384_S1024x2048x8 (ix3 b n h) = Y (ix2 b q) := by
  refine shapeCast_apply Y shapeCasts_S1024x16384_S1024x2048x8 (ix3 b n h) (ix2 b q) ?_
  rw [Shape.rowMajor_val_two, Shape.rowMajor_val_three]
  show b.val * 16384 + q.val = (b.val * 2048 + n.val) * 8 + h.val
  omega

/-- `added` read at a column whose residue mod 1024 is named. -/
theorem added_at (A : FVec Ideal S1024x1024 .f32) (R : FVec Ideal S1x16384 .f32) (b : Fin 1024) (q : Fin 16384)
    (y : Fin 1024) (hy : y.val = q.val % 1024) :
    added A R (ix2 b q) = max (A (ix2 b y) + R (ix2 (0 : Fin 1) q)) (Ideal.ofBits .f32 0x00000000#32) := by
  obtain rfl : y = ⟨q.val % 1024, Nat.mod_lt _ (by decide)⟩ := Fin.ext hy
  exact added_apply A R b q

/-- `tiled` read at a column whose residue mod 8 is named. -/
theorem tiled_at (u : FVec Ideal S1024x8 .f32) (b : Fin 1024) (y : Fin 1024) (h : Fin 8) (hh : h.val = y.val % 8) :
    tiled u (ix2 b y) = u (ix2 b h) := by
  obtain rfl : h = ⟨y.val % 8, Nat.mod_lt _ (by decide)⟩ := Fin.ext hh
  exact tiled_apply u b y

/-- `flat` read at a position whose quotient and residue by 8 are named. -/
theorem flat_at (u : FVec Ideal S2048x8 .f32) (q : Fin 16384) (n : Fin 2048) (h : Fin 8)
    (hn : n.val = q.val / 8) (hh : h.val = q.val % 8) :
    flat u (ix2 (0 : Fin 1) q) = u (ix2 n h) := by
  refine (flat_apply u q).trans (congrArg u ?_)
  funext a; apply Fin.ext
  match a with
  | ⟨0, _⟩ => exact hn.symm
  | ⟨1, _⟩ => exact hh.symm

/-- The output of the region over the host's two operand arrays, re-read as 1024 × 2048 × 8, is `reluSum`. -/
theorem value_eq (z : FVec Ideal S1024x64 .f32) (x : FVec Ideal S2048x64 .f32) (W : FVec Ideal S128x8 .f32)
    (bias : FVec Ideal S8 .f32) :
    shapeCast S1024x2048x8 (added (tiled (addBias (rowTerm z W) bias)) (flat (colTerm x W)))
        shapeCasts_S1024x16384_S1024x2048x8
      = reluSum (rowTerm z W) (colTerm x W) bias := by
  funext i
  obtain ⟨b, n, h, rfl⟩ : ∃ (b : Fin 1024) (n : Fin 2048) (h : Fin 8), i = ix3 b n h := ⟨i 0, i 1, i 2, eq_ix3 i⟩
  have hn : n.val < 2048 := n.isLt
  have hh : h.val < 8 := h.isLt
  rw [unflat_apply _ b n h (⟨n.val * 8 + h.val, by omega⟩ : Fin 16384) rfl,
    added_at _ _ b _ (⟨(n.val * 8 + h.val) % 1024, Nat.mod_lt _ (by decide)⟩ : Fin 1024) rfl,
    tiled_at _ b _ h (by show h.val = (n.val * 8 + h.val) % 1024 % 8; omega),
    flat_at _ _ n h (by show n.val = (n.val * 8 + h.val) / 8; omega) (by show h.val = (n.val * 8 + h.val) % 8; omega),
    addBias_apply, reluSum_apply]
  exact regroup _ _ _ _

variable (m : (ℓ : Loc nD τ sig) → Buf (Elt Ideal) ℓ) (ρ : Dev nD → PrngReg)

/-- The result buffer after the host line that follows the region: the region's output array re-read. -/
theorem tail_eq (c : Dev nD) :
    (Pipeline.afterTail₀ cfgs (dats m) 0 (V0 m) [hostOps1] c main_v12 : S1024x2048x8.Idx → EReal)
      = shapeCast S1024x2048x8 ((dats m 0 c).arrAt 2 cfg0.N) shapeCasts_S1024x16384_S1024x2048x8 := by
  unfold Pipeline.afterTail₀
  show StableHlo.after hostOps1 _ (Proc.devRef .tc main_v12) = _
  after_results
  rw [Pipeline.withArrays_arr spec0 launch0.win.arr_inj c _ _ 2]
  rfl

/-- The result buffer, as a function of the argument arrays as launched. -/
theorem result_eq (c : Dev nD) :
    (Pipeline.afterTail₀ cfgs (dats m) 0 (V0 m) [hostOps1] c main_v12 : S1024x2048x8.Idx → EReal)
      = reluSum (rowTerm (m ((c.tc : Thread nD τ).loc main_arg0)) (m ((c.tc : Thread nD τ).loc main_arg2)))
          (colTerm (m ((c.tc : Thread nD τ).loc main_arg1)) (m ((c.tc : Thread nD τ).loc main_arg2)))
          (m ((c.tc : Thread nD τ).loc main_arg3)) := by
  rw [tail_eq, Blocks.final, first_eq, second_eq]
  exact value_eq _ _ _ _

/-- Every weakly fair execution of the idealized kernel terminates with its result at `reluSum` of the row term,
    the column term and the bias of the arguments as launched, and the arguments unchanged. -/
theorem run : θ_run defs (onTc (τ := τ) (main (F := Ideal))) ⟨m, fun _ => 0, ρ⟩ fun r => ∀ c : Dev nD,
      r.2.mem ((c.tc : Thread nD τ).loc main_v12)
        = reluSum (rowTerm (m ((c.tc : Thread nD τ).loc main_arg0)) (m ((c.tc : Thread nD τ).loc main_arg2)))
            (colTerm (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.lean ====
/-
  The certificate of a broadcast add with a rectifier: for `z` (1024 × 64), `x` (2048 × 64), `W` (128 × 8) and a bias of
  8 entries, both programs return the 1024 × 2048 × 8 array whose entry `(b, n, h)` is the larger of `0` and
  `(z · W[0:64]) (b, h) + (x · W[64:128]) (n, h) + bias h`.

  The reference adds the two products first and the bias last. The kernel's host lines add the bias to the first
  product, repeat that 1024 × 8 array 128 times along the lanes, flatten the second product to one row of 16384, and
  a grid of 16 points adds the row to every row of the tiled array 1024 columns at a time and takes the maximum with
  zero; the result is re-read as 1024 × 2048 × 8. Index by index the two are the same three-term sum grouped in two
  ways, equal on the extended reals by commutativity and associativity of addition alone: the finiteness of the
  inputs is never used, and the two matrix products, which both programs state identically, are never opened.

  `ReluSum` states the common function and the regrouping; `RefReluSum` reads the reference's stages at an index;
  `KernelOperands` reads the two arrays the region finds, `KernelBlocks` the array the region leaves, and
  `KernelResult` the host line after it and the kernel's run. The three frames are the generated ones (the
  reference's is its generated run with the result dropped); no operation of the kernel was rewritten by the
  idealization, so the fourth conjunct is trivial.
-/
import proofs.«142133_j12541304504451_2_alg».proof.Defs
import proofs.«142133_j12541304504451_2_alg».proof.Proof.Gen.Kernel
import proofs.«142133_j12541304504451_2_alg».proof.Proof.Gen.Kernel.Skeleton
import proofs.«142133_j12541304504451_2_alg».proof.Proof.Gen.Kernel.Launch
import proofs.«142133_j12541304504451_2_alg».proof.Proof.Gen.Kernel.Points
import proofs.«142133_j12541304504451_2_alg».proof.Proof.Gen.Kernel.Frame
import proofs.«142133_j12541304504451_2_alg».proof.Proof.Gen.KernelIdeal
import proofs.«142133_j12541304504451_2_alg».proof.Proof.Gen.KernelIdeal.Skeleton
import proofs.«142133_j12541304504451_2_alg».proof.Proof.Gen.KernelIdeal.Launch
import proofs.«142133_j12541304504451_2_alg».proof.Proof.Gen.KernelIdeal.Points
import proofs.«142133_j12541304504451_2_alg».proof.Proof.Gen.KernelIdeal.Frame
import proofs.«142133_j12541304504451_2_alg».proof.Proof.Gen.ReferenceIdeal
import proofs.«142133_j12541304504451_2_alg».proof.Proof.Gen.ReferenceIdeal.Run
import proofs.«142133_j12541304504451_2_alg».proof.Proof.Gen.ReferenceIdeal.Read
import proofs.«142133_j12541304504451_2_alg».proof.Proof.Gen.Pre_finite_inputs
import proofs.«142133_j12541304504451_2_alg».proof.Proof.RefReluSum
import proofs.«142133_j12541304504451_2_alg».proof.Proof.KernelResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `reluSum` of the row product, the column product and the bias of the same
    argument arrays: the kernel's by its run, the reference's by its generated run read stage by stage; the two
    programs spell the two products with the same slices and the same contraction. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.stage_eq,
    (hagree c).1, (hagree c).2.1, (hagree c).2.2.1, (hagree c).2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
